-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S33554432 : Shape := ⟨1, ![33554432]⟩
abbrev S16777216 : Shape := ⟨1, ![16777216]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S33554432 : S_.BroadcastsInDim S33554432 (![] : Fin 0 → Fin S33554432.rank)
  reducesTo_S33554432_S_d0 : S33554432.ReducesTo [0] S_
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_v13 : IVec S_ 1) (main_v16 : IVec S16777216 1) : IVec S_ 1 :=
  let main_c_5 : IVec S_ 1 := constantI S_ 1 1#1
  let main_v17 : IVec S_ 1 := (fun x v => Host.reduce IntOp.andi x v reducesTo_S16777216_S_d0 h_S_) main_v16 main_c_5
  let main_v18 : IVec S_ 1 := andi main_v13 main_v17
  main_v18

def fn {F : FTy → Type} [FloatOps F] (main_arg0 : FVec F S262144x256 .f32) (main_arg1 : FVec F S33554432 .f32) (main_arg2 : FVec F S33554432 .f32) (main_arg3 : FVec F S16777216 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  let main_v9 : FVec F S33554432 .f32 := Host.absf main_arg2
  let main_cst_2 : FVec F S_ .f32 := constant S_ .f32 0x7F800000#32
  let main_v10 : FVec F S33554432 .f32 := broadcastInDim S33554432 ![] bcast_S_S33554432 main_cst_2
  let main_v11 : IVec S33554432 1 := cmpf .olt main_v9 main_v10
  let main_c_3 : IVec S_ 1 := constantI S_ 1 1#1
  let main_v12 : IVec S_ 1 := (fun x v => Host.reduce IntOp.andi x v reducesTo_S33554432_S_d0 h_S_) main_v11 main_c_3
  let main_v13 : IVec S_ 1 := andi main_v8 main_v12
  let main_v14 : FVec F S16777216 .f32 := Host.absf main_arg3
  let main_cst_4 : FVec F S_ .f32 := constant S_ .f32 0x7F800000#32
  let main_v15 : FVec F S16777216 .f32 := broadcastInDim S16777216 ![] bcast_S_S16777216 main_cst_4
  let main_v16 : IVec S16777216 1 := cmpf .olt main_v14 main_v15
  fn_part1 (F := F) main_v13 main_v16
-- ==== Kernel.lean ====
abbrev S262144x256 : Shape := ⟨2, ![262144, 256]⟩
abbrev S33554432 : Shape := ⟨1, ![33554432]⟩
abbrev S16777216 : Shape := ⟨1, ![16777216]⟩
abbrev S2048x128x256 : Shape := ⟨3, ![2048, 128, 256]⟩
abbrev S2048x128x128 : Shape := ⟨3, ![2048, 128, 128]⟩
abbrev S2048x64x128 : Shape := ⟨3, ![2048, 64, 128]⟩
abbrev S2048x64x256 : Shape := ⟨3, ![2048, 64, 256]⟩
abbrev S16x128x256 : Shape := ⟨3, ![16, 128, 256]⟩
abbrev S16x128x128 : Shape := ⟨3, ![16, 128, 128]⟩
abbrev S16x64x128 : Shape := ⟨3, ![16, 64, 128]⟩
abbrev S16x64x256 : Shape := ⟨3, ![16, 64, 256]⟩
abbrev S131072x256 : Shape := ⟨2, ![131072, 256]⟩

abbrev nBuf : Space → Nat
  | .hbm => 10
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S33554432, .f32⟩
  | .hbm, ⟨2, _⟩ => ⟨S33554432, .f32⟩
  | .hbm, ⟨3, _⟩ => ⟨S16777216, .f32⟩
  | .hbm, ⟨4, _⟩ => ⟨S2048x128x256, .f32⟩
  | .hbm, ⟨5, _⟩ => ⟨S2048x128x128, .f32⟩
  | .hbm, ⟨6, _⟩ => ⟨S2048x128x128, .f32⟩
  | .hbm, ⟨7, _⟩ => ⟨S2048x64x128, .f32⟩
  | .hbm, ⟨8, _⟩ => ⟨S2048x64x256, .f32⟩
  | .hbm, ⟨9, _⟩ => ⟨S131072x256, .f32⟩
  | .local _ .vmem, ⟨0, _⟩ => ⟨S16x128x256, .f32⟩
  | .local _ .vmem, ⟨1, _⟩ => ⟨S16x128x256, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x128x128, .f32⟩
  | .local _ .vmem, ⟨6, _⟩ => ⟨S16x64x128, .f32⟩
  | .local _ .vmem, ⟨7, _⟩ => ⟨S16x64x128, .f32⟩
  | .local _ .vmem, ⟨8, _⟩ => ⟨S16x64x256, .f32⟩
  | .local _ .vmem, ⟨9, _⟩ => ⟨S16x64x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S262144x256_S2048x128x256 : S262144x256.ShapeCasts S2048x128x256
  shapeCasts_S33554432_S2048x128x128 : S33554432.ShapeCasts S2048x128x128
  shapeCasts_S16777216_S2048x64x128 : S16777216.ShapeCasts S2048x64x128
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  bitsLt_bf16_f32 : FTy.bits .bf16 < FTy.bits .f32
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  inb_S16x64x128_S16x64x128_0_0_0 : ∀ a, (![0, 0, 0] : Fin 3 → Nat) a + S16x64x128.size a ≤ S16x64x128.size a
  h_S16x64x128 : 0 < S16x64x128.numel
  shapeCasts_S16x64x128_S16x64x128 : S16x64x128.ShapeCasts S16x64x128
  inb_S16x64x256_S16x64x256_0_0_0 : ∀ a, (![0, 0, 0] : Fin 3 → Nat) a + S16x64x256.size a ≤ S16x64x256.size a
  h_S16x64x256 : 0 < S16x64x256.numel
  shapeCasts_S2048x64x256_S131072x256 : S2048x64x256.ShapeCasts S131072x256
  dot_S16x128x128_S16x128x256_S16x128x256_2_1_1_2_0_0_wf : DotDims.WF S16x128x128 S16x128x256 S16x128x256 [2] [1] [1] [2] [0] [0]
  dot_S16x64x128_S16x128x256_S16x64x256_2_1_1_2_0_0_wf : DotDims.WF S16x64x128 S16x128x256 S16x64x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S2048x128x256.size a
  hwx0_0 : ∀ i : grid0.Coords, EltTy.bits .f32 = 32 ∨ (Rect.block (s := S2048x128x256) S16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S2048x128x128.size a
  hwx0_1 : ∀ i : grid0.Coords, EltTy.bits .f32 = 32 ∨ (Rect.block (s := S2048x128x128) S16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x128.size a ≤ S2048x128x128.size a
  hwx0_2 : ∀ i : grid0.Coords, EltTy.bits .f32 = 32 ∨ (Rect.block (s := S2048x128x128) S16x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x128.size a ≤ S2048x64x128.size a
  hwx0_3 : ∀ i : grid0.Coords, EltTy.bits .f32 = 32 ∨ (Rect.block (s := S2048x64x128) S16x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x256.size a ≤ S2048x64x256.size a
  hwx0_4 : ∀ i : grid0.Coords, EltTy.bits .f32 = 32 ∨ (Rect.block (s := S2048x64x256) S16x64x256.size (cc0_transform_4 i) (hinb0_4 i)).WholeWords (EltTy.packing .f32)

variable [Facts₀]

def dot_S16x128x128_S16x128x256_S16x128x256_2_1_1_2_0_0 : DotDims S16x128x128 S16x128x256 S16x128x256 where
  lhsContracting := [2]
  rhsContracting := [1]
  lhsNonContracting := [1]
  rhsNonContracting := [2]
  lhsBatch := [0]
  rhsBatch := [0]
  wf := dot_S16x128x128_S16x128x256_S16x128x256_2_1_1_2_0_0_wf
def dot_S16x64x128_S16x128x256_S16x64x256_2_1_1_2_0_0 : DotDims S16x64x128 S16x128x256 S16x64x256 where
  lhsContracting := [2]
  rhsContracting := [1]
  lhsNonContracting := [1]
  rhsNonContracting := [2]
  lhsBatch := [0]
  rhsBatch := [0]
  wf := dot_S16x64x128_S16x128x256_S16x64x256_2_1_1_2_0_0_wf

abbrev win0_0 : Pipeline.Window sig grid0 :=
  Pipeline.Window.ofSpec (Memref.whole main_v0) S16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S33554432 : Shape := ⟨1, ![33554432]⟩
abbrev S16777216 : Shape := ⟨1, ![16777216]⟩
abbrev S2048x128x128 : Shape := ⟨3, ![2048, 128, 128]⟩
abbrev S2048x128x256 : Shape := ⟨3, ![2048, 128, 256]⟩
abbrev S2048x64x128 : Shape := ⟨3, ![2048, 64, 128]⟩
abbrev S2048x64x256 : Shape := ⟨3, ![2048, 64, 256]⟩
abbrev S131072x256 : Shape := ⟨2, ![131072, 256]⟩

abbrev nBuf : Space → Nat
  | .hbm => 16
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S33554432, .f32⟩
  | .hbm, ⟨2, _⟩ => ⟨S33554432, .f32⟩
  | .hbm, ⟨3, _⟩ => ⟨S16777216, .f32⟩
  | .hbm, ⟨4, _⟩ => ⟨S2048x128x128, .f32⟩
  | .hbm, ⟨5, _⟩ => ⟨S2048x128x256, .f32⟩
  | .hbm, ⟨6, _⟩ => ⟨S2048x128x256, .f32⟩
  | .hbm, ⟨7, _⟩ => ⟨S262144x256, .f32⟩
  | .hbm, ⟨8, _⟩ => ⟨S2048x128x128, .f32⟩
  | .hbm, ⟨9, _⟩ => ⟨S2048x128x256, .f32⟩
  | .hbm, ⟨10, _⟩ => ⟨S2048x128x256, .f32⟩
  | .hbm, ⟨11, _⟩ => ⟨S262144x256, .f32⟩
  | .hbm, ⟨12, _⟩ => ⟨S2048x64x128, .f32⟩
  | .hbm, ⟨13, _⟩ => ⟨S2048x128x256, .f32⟩
  | .hbm, ⟨14, _⟩ => ⟨S2048x64x256, .f32⟩
  | .hbm, ⟨15, _⟩ => ⟨S131072x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S33554432_S2048x128x128 : S33554432.ShapeCasts S2048x128x128
  shapeCasts_S262144x256_S2048x128x256 : S262144x256.ShapeCasts S2048x128x256
  shapeCasts_S2048x128x256_S262144x256 : S2048x128x256.ShapeCasts S262144x256
  shapeCasts_S16777216_S2048x64x128 : S16777216.ShapeCasts S2048x64x128
  shapeCasts_S2048x64x256_S131072x256 : S2048x64x256.ShapeCasts S131072x256
  dot_S2048x128x128_S2048x128x256_S2048x128x256_2_1_1_2_0_0_wf : DotDims.WF S2048x128x128 S2048x128x256 S2048x128x256 [2] [1] [1] [2] [0] [0]
  dot_S2048x64x128_S2048x128x256_S2048x64x256_2_1_1_2_0_0_wf : DotDims.WF S2048x64x128 S2048x128x256 S2048x64x256 [2] [1] [1] [2] [0] [0]

variable [Facts₀]

def dot_S2048x128x128_S2048x128x256_S2048x128x256_2_1_1_2_0_0 : DotDims S2048x128x128 S2048x128x256 S2048x128x256 where
  lhsContracting := [2]
  rhsContracting := [1]
  lhsNonContracting := [1]
  rhsNonContracting := [2]
  lhsBatch := [0]
  rhsBatch := [0]
  wf := dot_S2048x128x128_S2048x128x256_S2048x128x256_2_1_1_2_0_0_wf
def dot_S2048x64x128_S2048x128x256_S2048x64x256_2_1_1_2_0_0 : DotDims S2048x64x128 S2048x128x256 S2048x64x256 where
  lhsContracting := [2]
  rhsContracting := [1]
  lhsNonContracting := [1]
  rhsNonContracting := [2]
  lhsBatch := [0]
  rhsBatch := [0]
  wf := dot_S2048x64x128_S2048x128x256_S2048x64x256_2_1_1_2_0_0_wf

class Facts : Prop extends Facts₀ where

variable [Facts]
-- ==== Proof.Spec.lean ====
/-
  The function both programs compute, stated once, apart from either program.

  There are 2048 independent nets.  Net `n` owns a [128,256] slab of the input and three weight matrices
  W0_n, W1_n : [128,128] and W2_n : [64,128]; its output slab is the triple product  W2_n · (W1_n · (W0_n · X_n))  of shape
  [64,256].  Over the extended reals every entry is a finite sum of products, parenthesised in exactly this order by
  both programs, so no law beyond "the same sums of the same products" is needed (and none that fails at ±∞).

  `bmm` is one layer for all nets at once; `netBlock` restricts an array over the 2048 nets to the 16 consecutive
  nets a grid point works on, and `bmm_netBlock` says a layer commutes with that restriction (net `n`'s slab of a
  product only reads net `n`'s slabs of the factors).
-/
import Idealize.ShloMosaic.PureOps.Ideal
import Idealize.ShloMosaic.Lib.ValueIdx
import Idealize.ShloMosaic.Lib.Pipeline.Value

noncomputable section

namespace Cert.BlockDiagMlp

open Idealize.ShloMosaic Idealize.ShloMosaic.ValueIdx

/-- Arrays of extended reals over a rank-3 box `a × b × c`. -/
abbrev A3 (a b c : Nat) : Type := (⟨3, ![a, b, c]⟩ : Shape).Idx → EReal

/-- One layer for every net: `(W ⋆ X)(n, r, b) = Σ_k W(n, r, k) · X(n, k, b)`. -/
def bmm {B R K N : Nat} (W : A3 B R K) (X : A3 B K N) : A3 B R N :=
  fun i => ∑ k : Fin K, W (ix3 (n0 := B) (n1 := R) (n2 := K) (i 0) (i 1) k) * X (ix3 (n0 := B) (n1 := K) (n2 := N) (i 0) k (i 2))

/-- The three layers: per net, `W2 · (W1 · (W0 · X))`. -/
def mlp (x : A3 2048 128 256) (w0 w1 : A3 2048 128 128) (w2 : A3 2048 64 128) : A3 2048 64 256 :=
  bmm w2 (bmm w1 (bmm w0 x))

/-- Nets `16·b … 16·b + 15` of an array over the 2048 nets. -/
def netBlock {R C : Nat} (b : Nat) (hb : b < 128) (A : A3 2048 R C) : A3 16 R C :=
  fun y => A (ix3 (n0 := 2048) (n1 := R) (n2 := C)
    ⟨b * 16 + (y 0).val, by have h : (y 0).val < 16 := (y 0).isLt; omega⟩ (y 1) (y 2))

/-- A layer of the 16 nets of a block is the block of the layer: net `n` of a product reads only net `n` of its factors. -/
theorem bmm_netBlock {R K N : Nat} (b : Nat) (hb : b < 128) (W : A3 2048 R K) (X : A3 2048 K N) :
    bmm (netBlock b hb W) (netBlock b hb X) = netBlock b hb (bmm W X) := by
  funext y
  rfl

/-- The whole result: the arguments re-laid per net, the three layers, the result laid back as rows.
    (A re-laying keeps row-major order; the witnesses `h…` only say the element counts agree.) -/
def result
    (hx : (⟨2, ![262144, 256]⟩ : Shape).ShapeCasts ⟨3, ![2048, 128, 256]⟩)
    (hw : (⟨1, ![33554432]⟩ : Shape).ShapeCasts ⟨3, ![2048, 128, 128]⟩)
    (hw2 : (⟨1, ![16777216]⟩ : Shape).ShapeCasts ⟨3, ![2048, 64, 128]⟩)
    (ho : (⟨3, ![2048, 64, 256]⟩ : Shape).ShapeCasts ⟨2, ![131072, 256]⟩)
    (x : (⟨2, ![262144, 256]⟩ : Shape).Idx → EReal) (w0 w1 : (⟨1, ![33554432]⟩ : Shape).Idx → EReal)
    (w2 : (⟨1, ![16777216]⟩ : Shape).Idx → EReal) : (⟨2, ![131072, 256]⟩ : Shape).Idx → EReal :=
  shapeCast _ (mlp (shapeCast _ x hx) (shapeCast _ w0 hw) (shapeCast _ w1 hw) (shapeCast _ w2 hw2)) ho

end Cert.BlockDiagMlp

end
-- ==== Proof.RefLayers.lean ====
/-
  The reference, read as the three layers.

  The reference re-lays each weight vector as [2048, rows, 128] and the activations as [2048, 128, 256], multiplies net by
  net, and between layers flattens the product to rows and re-lays it per net again.  Flattening and re-laying with the
  same row-major order is the identity, and each batched product, read at an index over the extended reals, is the
  sum over the contracted axis of the products of the two factors' entries of the same net.  So the reference's
  result is `result` of its arguments.
-/
import proofs.«146651_j16801912062196_1_alg».proof.Proof.Gen.ReferenceIdeal.Read
import proofs.«146651_j16801912062196_1_alg».proof.Proof.Spec

noncomputable section

namespace Cert.ReferenceIdeal.Layers

open Cert.ReferenceIdeal Cert.ReferenceIdeal.Gen Cert.ReferenceIdeal.Read
open Idealize.ShloMosaic Idealize.ShloMosaic.ValueIdx Cert.BlockDiagMlp

/-! The operand indices of the three products, as coordinates: left `(n, r, k)`, right `(n, k, b)`. -/

theorem lidx2 (i : S2048x128x256.Idx) (k : Fin 128) : lidx_main_v2 i k = ix3 (n0 := 2048) (n1 := 128) (n2 := 128) (i 0) (i 1) k :=
  funext fun a => by match a with | ⟨0, _⟩ => rfl | ⟨1, _⟩ => rfl | ⟨2, _⟩ => rfl
theorem ridx2 (i : S2048x128x256.Idx) (k : Fin 128) : ridx_main_v2 i k = ix3 (n0 := 2048) (n1 := 128) (n2 := 256) (i 0) k (i 2) :=
  funext fun a => by match a with | ⟨0, _⟩ => rfl | ⟨1, _⟩ => rfl | ⟨2, _⟩ => rfl
theorem lidx6 (i : S2048x128x256.Idx) (k : Fin 128) : lidx_main_v6 i k = ix3 (n0 := 2048) (n1 := 128) (n2 := 128) (i 0) (i 1) k :=
  funext fun a => by match a with | ⟨0, _⟩ => rfl | ⟨1, _⟩ => rfl | ⟨2, _⟩ => rfl
theorem ridx6 (i : S2048x128x256.Idx) (k : Fin 128) : ridx_main_v6 i k = ix3 (n0 := 2048) (n1 := 128) (n2 := 256) (i 0) k (i 2) :=
  funext fun a => by match a with | ⟨0, _⟩ => rfl | ⟨1, _⟩ => rfl | ⟨2, _⟩ => rfl
theorem lidx10 (i : S2048x64x256.Idx) (k : Fin 128) : lidx_main_v10 i k = ix3 (n0 := 2048) (n1 := 64) (n2 := 128) (i 0) (i 1) k :=
  funext fun a => by match a with | ⟨0, _⟩ => rfl | ⟨1, _⟩ => rfl | ⟨2, _⟩ => rfl
theorem ridx10 (i : S2048x64x256.Idx) (k : Fin 128) : ridx_main_v10 i k = ix3 (n0 := 2048) (n1 := 128) (n2 := 256) (i 0) k (i 2) :=
  funext fun a => by match a with | ⟨0, _⟩ => rfl | ⟨1, _⟩ => rfl | ⟨2, _⟩ => rfl

variable (x0 : (⟨S262144x256, .f32⟩ : BufTy).Contents (Elt Ideal)) (x1 x2 : (⟨S33554432, .f32⟩ : BufTy).Contents (Elt Ideal))
  (x3 : (⟨S16777216, .f32⟩ : BufTy).Contents (Elt Ideal))

/-- The first product is the first layer of the re-laid arguments. -/
theorem layer0 : val_main_v2 (F := Ideal) x0 x1 = bmm (val_main_v0 (F := Ideal) x1) (val_main_v1 (F := Ideal) x0) := by
  funext i
  rw [val_main_v2_apply]
  exact Finset.sum_congr rfl fun k _ => by rw [lidx2, ridx2]

/-- Flattened to rows and re-laid per net, the first product is itself. -/
theorem relaid0 : val_main_v5 (F := Ideal) x0 x1 = val_main_v2 (F := Ideal) x0 x1 := by
  unfold val_main_v5 val_main_v3
  exact shapeCast_shapeCast _ _ _

/-- The second product is the second layer. -/
theorem layer1 : val_main_v6 (F := Ideal) x0 x1 x2 = bmm (val_main_v4 (F := Ideal) x2) (val_main_v5 (F := Ideal) x0 x1) := by
  funext i
  rw [val_main_v6_apply]
  exact Finset.sum_congr rfl fun k _ => by rw [lidx6, ridx6]

/-- Flattened to rows and re-laid per net, the second product is itself. -/
theorem relaid1 : val_main_v9 (F := Ideal) x0 x1 x2 = val_main_v6 (F := Ideal) x0 x1 x2 := by
  unfold val_main_v9 val_main_v7
  exact shapeCast_shapeCast _ _ _

/-- The third product is the third layer. -/
theorem layer2 : val_main_v10 (F := Ideal) x0 x1 x2 x3 = bmm (val_main_v8 (F := Ideal) x3) (val_main_v9 (F := Ideal) x0 x1 x2) := by
  funext i
  rw [val_main_v10_apply]
  exact Finset.sum_congr rfl fun k _ => by rw [lidx10, ridx10]

/-- The reference's result is `result` of its arguments. -/
theorem result_eq : val_main_v11 (F := Ideal) x0 x1 x2 x3
    = result shapeCasts_S262144x256_S2048x128x256 shapeCasts_S33554432_S2048x128x128 shapeCasts_S16777216_S2048x64x128
        shapeCasts_S2048x64x256_S131072x256 x0 x1 x2 x3 := by
  unfold val_main_v11 result mlp
  rw [layer2, relaid1, layer1, relaid0, layer0]
  rfl

end Cert.ReferenceIdeal.Layers

end
-- ==== Proof.KernelBody.lean ====
/-
  The kernel body's arithmetic, read over the extended reals.

  A grid point loads 16 nets' slabs of the input and of the three weight arrays and stores one value: three products on the
  matrix unit, each into a zero accumulator, with the operands narrowed to bf16 on the way in.  Over the extended reals a
  change of float format is the identity and a product into a zero accumulator is the plain sum of products over the
  contracted axis, batch axis 0 carried along.  So the stored value is the three layers of the loaded blocks.
-/
import proofs.«146651_j16801912062196_1_alg».proof.Proof.Gen.KernelIdeal.Skeleton
import proofs.«146651_j16801912062196_1_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen
open Idealize.ShloMosaic Idealize.ShloMosaic.ValueIdx Cert.BlockDiagMlp

/-! The operand indices of the [16,128,128] × [16,128,256] product: left `(n, r, k)`, right `(n, k, b)`. -/

theorem lhs128_0 (i : S16x128x256.Idx) (q : dot_S16x128x128_S16x128x256_S16x128x256_2_1_1_2_0_0.contr.Idx) : (dot_S16x128x128_S16x128x256_S16x128x256_2_1_1_2_0_0.lhsIdx i q 0).val = (i 0).val := by
  unfold DotDims.lhsIdx
  rw [dif_pos (show (0 : Fin S16x128x128.rank) ∈ dot_S16x128x128_S16x128x256_S16x128x256_2_1_1_2_0_0.lhsBatch by decide)]
  rfl
theorem lhs128_1 (i : S16x128x256.Idx) (q : dot_S16x128x128_S16x128x256_S16x128x256_2_1_1_2_0_0.contr.Idx) : (dot_S16x128x128_S16x128x256_S16x128x256_2_1_1_2_0_0.lhsIdx i q 1).val = (i 1).val := by
  unfold DotDims.lhsIdx
  rw [dif_neg (show ¬(1 : Fin S16x128x128.rank) ∈ dot_S16x128x128_S16x128x256_S16x128x256_2_1_1_2_0_0.lhsBatch by decide), dif_pos (show (1 : Fin S16x128x128.rank) ∈ dot_S16x128x128_S16x128x256_S16x128x256_2_1_1_2_0_0.lhsNonContracting by decide)]
  rfl
theorem lhs128_2 (i : S16x128x256.Idx) (q : dot_S16x128x128_S16x128x256_S16x128x256_2_1_1_2_0_0.contr.Idx) : (dot_S16x128x128_S16x128x256_S16x128x256_2_1_1_2_0_0.lhsIdx i q 2).val = (q ⟨0, by decide⟩).val :=
  dot_S16x128x128_S16x128x256_S16x128x256_2_1_1_2_0_0.lhsIdx_val_of_single rfl i q
theorem rhs128_0 (i : S16x128x256.Idx) (q : dot_S16x128x128_S16x128x256_S16x128x256_2_1_1_2_0_0.contr.Idx) : (dot_S16x128x128_S16x128x256_S16x128x256_2_1_1_2_0_0.rhsIdx i q 0).val = (i 0).val := by
  unfold DotDims.rhsIdx
  rw [dif_pos (show (0 : Fin S16x128x256.rank) ∈ dot_S16x128x128_S16x128x256_S16x128x256_2_1_1_2_0_0.rhsBatch by decide)]
  rfl
theorem rhs128_1 (i : S16x128x256.Idx) (q : dot_S16x128x128_S16x128x256_S16x128x256_2_1_1_2_0_0.contr.Idx) : (dot_S16x128x128_S16x128x256_S16x128x256_2_1_1_2_0_0.rhsIdx i q 1).val = (q ⟨0, by decide⟩).val :=
  dot_S16x128x128_S16x128x256_S16x128x256_2_1_1_2_0_0.rhsIdx_val_of_single rfl i q
theorem rhs128_2 (i : S16x128x256.Idx) (q : dot_S16x128x128_S16x128x256_S16x128x256_2_1_1_2_0_0.contr.Idx) : (dot_S16x128x128_S16x128x256_S16x128x256_2_1_1_2_0_0.rhsIdx i q 2).val = (i 2).val := by
  unfold DotDims.rhsIdx
  rw [dif_neg (show ¬(2 : Fin S16x128x256.rank) ∈ dot_S16x128x128_S16x128x256_S16x128x256_2_1_1_2_0_0.rhsBatch by decide), dif_pos (show (2 : Fin S16x128x256.rank) ∈ dot_S16x128x128_S16x128x256_S16x128x256_2_1_1_2_0_0.rhsNonContracting by decide)]
  rfl

/-- Over the extended reals the matrix unit's product of 16 nets' [128,128] by [128,256] matrices into a zero accumulator is
    the layer `bmm`: entry `(n, r, b)` is `Σ_k A(n, r, k) · X(n, k, b)`. -/
theorem matmul128_eq (A : FVec Ideal S16x128x128 .bf16) (X : FVec Ideal S16x128x256 .bf16) :
    matmul (F := Ideal) dot_S16x128x128_S16x128x256_S16x128x256_2_1_1_2_0_0 none A X (constant S16x128x256 .f32 0x00000000#32)
      = bmm (B := 16) (R := 128) (K := 128) (N := 256) A X := by
  funext i
  simp only [matmul]
  rw [Ideal.matmul_constant_zero_apply, ← Equiv.sum_comp (contrEquiv1 dot_S16x128x128_S16x128x256_S16x128x256_2_1_1_2_0_0 128 rfl rfl).symm]
  refine Finset.sum_congr rfl fun k _ => ?_
  have hk := contrEquiv1_symm_val dot_S16x128x128_S16x128x256_S16x128x256_2_1_1_2_0_0 128 rfl rfl k
  have el : dot_S16x128x128_S16x128x256_S16x128x256_2_1_1_2_0_0.lhsIdx i ((contrEquiv1 dot_S16x128x128_S16x128x256_S16x128x256_2_1_1_2_0_0 128 rfl rfl).symm k) = ix3 (n0 := 16) (n1 := 128) (n2 := 128) (i 0) (i 1) k := funext fun a => Fin.ext (by
    match a with
    | ⟨0, _⟩ => exact lhs128_0 _ _
    | ⟨1, _⟩ => exact lhs128_1 _ _
    | ⟨2, _⟩ => exact (lhs128_2 _ _).trans hk)
  have er : dot_S16x128x128_S16x128x256_S16x128x256_2_1_1_2_0_0.rhsIdx i ((contrEquiv1 dot_S16x128x128_S16x128x256_S16x128x256_2_1_1_2_0_0 128 rfl rfl).symm k) = ix3 (n0 := 16) (n1 := 128) (n2 := 256) (i 0) k (i 2) := funext fun a => Fin.ext (by
    match a with
    | ⟨0, _⟩ => exact rhs128_0 _ _
    | ⟨1, _⟩ => exact (rhs128_1 _ _).trans hk
    | ⟨2, _⟩ => exact rhs128_2 _ _)
  rw [el, er]

/-! The operand indices of the [16,64,128] × [16,128,256] product: left `(n, r, k)`, right `(n, k, b)`. -/

theorem lhs64_0 (i : S16x64x256.Idx) (q : dot_S16x64x128_S16x128x256_S16x64x256_2_1_1_2_0_0.contr.Idx) : (dot_S16x64x128_S16x128x256_S16x64x256_2_1_1_2_0_0.lhsIdx i q 0).val = (i 0).val := by
  unfold DotDims.lhsIdx
  rw [dif_pos (show (0 : Fin S16x64x128.rank) ∈ dot_S16x64x128_S16x128x256_S16x64x256_2_1_1_2_0_0.lhsBatch by decide)]
  rfl
theorem lhs64_1 (i : S16x64x256.Idx) (q : dot_S16x64x128_S16x128x256_S16x64x256_2_1_1_2_0_0.contr.Idx) : (dot_S16x64x128_S16x128x256_S16x64x256_2_1_1_2_0_0.lhsIdx i q 1).val = (i 1).val := by
  unfold DotDims.lhsIdx
  rw [dif_neg (show ¬(1 : Fin S16x64x128.rank) ∈ dot_S16x64x128_S16x128x256_S16x64x256_2_1_1_2_0_0.lhsBatch by decide), dif_pos (show (1 : Fin S16x64x128.rank) ∈ dot_S16x64x128_S16x128x256_S16x64x256_2_1_1_2_0_0.lhsNonContracting by decide)]
  rfl
theorem lhs64_2 (i : S16x64x256.Idx) (q : dot_S16x64x128_S16x128x256_S16x64x256_2_1_1_2_0_0.contr.Idx) : (dot_S16x64x128_S16x128x256_S16x64x256_2_1_1_2_0_0.lhsIdx i q 2).val = (q ⟨0, by decide⟩).val :=
  dot_S16x64x128_S16x128x256_S16x64x256_2_1_1_2_0_0.lhsIdx_val_of_single rfl i q
theorem rhs64_0 (i : S16x64x256.Idx) (q : dot_S16x64x128_S16x128x256_S16x64x256_2_1_1_2_0_0.contr.Idx) : (dot_S16x64x128_S16x128x256_S16x64x256_2_1_1_2_0_0.rhsIdx i q 0).val = (i 0).val := by
  unfold DotDims.rhsIdx
  rw [dif_pos (show (0 : Fin S16x128x256.rank) ∈ dot_S16x64x128_S16x128x256_S16x64x256_2_1_1_2_0_0.rhsBatch by decide)]
  rfl
theorem rhs64_1 (i : S16x64x256.Idx) (q : dot_S16x64x128_S16x128x256_S16x64x256_2_1_1_2_0_0.contr.Idx) : (dot_S16x64x128_S16x128x256_S16x64x256_2_1_1_2_0_0.rhsIdx i q 1).val = (q ⟨0, by decide⟩).val :=
  dot_S16x64x128_S16x128x256_S16x64x256_2_1_1_2_0_0.rhsIdx_val_of_single rfl i q
theorem rhs64_2 (i : S16x64x256.Idx) (q : dot_S16x64x128_S16x128x256_S16x64x256_2_1_1_2_0_0.contr.Idx) : (dot_S16x64x128_S16x128x256_S16x64x256_2_1_1_2_0_0.rhsIdx i q 2).val = (i 2).val := by
  unfold DotDims.rhsIdx
  rw [dif_neg (show ¬(2 : Fin S16x128x256.rank) ∈ dot_S16x64x128_S16x128x256_S16x64x256_2_1_1_2_0_0.rhsBatch by decide), dif_pos (show (2 : Fin S16x128x256.rank) ∈ dot_S16x64x128_S16x128x256_S16x64x256_2_1_1_2_0_0.rhsNonContracting by decide)]
  rfl

/-- Over the extended reals the matrix unit's product of 16 nets' [64,128] by [128,256] matrices into a zero accumulator is
    the layer `bmm`: entry `(n, r, b)` is `Σ_k A(n, r, k) · X(n, k, b)`. -/
theorem matmul64_eq (A : FVec Ideal S16x64x128 .bf16) (X : FVec Ideal S16x128x256 .bf16) :
    matmul (F := Ideal) dot_S16x64x128_S16x128x256_S16x64x256_2_1_1_2_0_0 none A X (constant S16x64x256 .f32 0x00000000#32)
      = bmm (B := 16) (R := 64) (K := 128) (N := 256) A X := by
  funext i
  simp only [matmul]
  rw [Ideal.matmul_constant_zero_apply, ← Equiv.sum_comp (contrEquiv1 dot_S16x64x128_S16x128x256_S16x64x256_2_1_1_2_0_0 128 rfl rfl).symm]
  refine Finset.sum_congr rfl fun k _ => ?_
  have hk := contrEquiv1_symm_val dot_S16x64x128_S16x128x256_S16x64x256_2_1_1_2_0_0 128 rfl rfl k
  have el : dot_S16x64x128_S16x128x256_S16x64x256_2_1_1_2_0_0.lhsIdx i ((contrEquiv1 dot_S16x64x128_S16x128x256_S16x64x256_2_1_1_2_0_0 128 rfl rfl).symm k) = ix3 (n0 := 16) (n1 := 64) (n2 := 128) (i 0) (i 1) k := funext fun a => Fin.ext (by
    match a with
    | ⟨0, _⟩ => exact lhs64_0 _ _
    | ⟨1, _⟩ => exact lhs64_1 _ _
    | ⟨2, _⟩ => exact (lhs64_2 _ _).trans hk)
  have er : dot_S16x64x128_S16x128x256_S16x64x256_2_1_1_2_0_0.rhsIdx i ((contrEquiv1 dot_S16x64x128_S16x128x256_S16x64x256_2_1_1_2_0_0 128 rfl rfl).symm k) = ix3 (n0 := 16) (n1 := 128) (n2 := 256) (i 0) k (i 2) := funext fun a => Fin.ext (by
    match a with
    | ⟨0, _⟩ => exact rhs64_0 _ _
    | ⟨1, _⟩ => exact (rhs64_1 _ _).trans hk
    | ⟨2, _⟩ => exact rhs64_2 _ _)
  rw [el, er]

/-- Narrowing a vector's float format changes nothing over the extended reals. -/
theorem truncf_id {s : Shape} {φ : FTy} (ψ : FTy) (v : FVec Ideal s φ) (h : ψ.bits < φ.bits) : truncf (F := Ideal) ψ v h = v := rfl

/-- The value a grid point stores is the three layers of the blocks it loaded: per net of the block,
    `W2 · (W1 · (W0 · X))`. -/
theorem stored_eq (v0 : Vec Ideal S16x128x256 .f32) (v3 v8 : Vec Ideal S16x128x128 .f32) (v13 : Vec Ideal S16x64x128 .f32) :
    k0_pay1 (F := Ideal) v0 v3 v8 v13
      = bmm (B := 16) (R := 64) (K := 128) (N := 256) v13 (bmm (B := 16) (R := 128) (K := 128) (N := 256) v8
          (bmm (B := 16) (R := 128) (K := 128) (N := 256) v3 v0)) := by
  unfold k0_pay1
  simp only [shapeCast_self, truncf_id]
  rw [matmul128_eq, matmul128_eq, matmul64_eq]

end Cert.KernelIdeal.Body

end
-- ==== Proof.KernelValue.lean ====
/-
  What the kernel's output array holds after the region.

  The grid has 128 points; point `t` is handed nets `16·t … 16·t + 15` of each of the four input arrays (every window's
  index map is `(t, 0, 0)` with blocks of 16 nets) and writes back nets `16·t … 16·t + 15` of the output.  What it
  writes is the three layers of its input blocks, and a layer of a block of nets is the block of the layer, so point
  `t` writes block `t` of ONE array: the three layers `mlp` of the whole input arrays.  The 128 blocks cover the 2048
  nets (net `n` is in block `n / 16`), so after the region the output array is `mlp` of the arrays the region found.
-/
import proofs.«146651_j16801912062196_1_alg».proof.Proof.Gen.KernelIdeal.Frame
import proofs.«146651_j16801912062196_1_alg».proof.Proof.KernelBody
import Idealize.ShloMosaic.Lib.Pipeline.Value

noncomputable section

namespace Cert.KernelIdeal.Nets

open Cert.KernelIdeal Cert.KernelIdeal.Gen
open Idealize.ShloMosaic Idealize.ShloMosaic.TcCoe Idealize.SL.Sem
open Idealize.ShloMosaic.Pipeline (Dat)
open Idealize.ShloMosaic.ValueIdx Cert.BlockDiagMlp

variable (m : (ℓ : Loc nD τ sig) → Buf (Elt Ideal) ℓ)

theorem hz : (![0, 0, 0] : Fin 3 → Nat) = fun _ => 0 := funext fun a => by fin_cases a <;> rfl

/-- A grid point's number is below 128. -/
theorem pt_lt (t : Fin cfg0.N) : t.val < 128 := by
  have h : t.val < cfg0.N := t.isLt
  have hN : cfg0.N = 128 := N_0
  omega

/-- Every window's block index at point `t` is `(t, 0, 0)` (decided over the 128 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- Window 0's block at point `t` is nets `16·t … 16·t + 15` of its array. -/
theorem iblk0_eq (c : Dev nD) (t : Fin cfg0.N) :
    (iblk m c 0 t : Vec Ideal S16x128x256 .f32) = netBlock t.val (pt_lt t) (V m c main_v0) := by
  obtain ⟨⟨e0, e1, e2⟩, -, -, -, -⟩ := idx_facts t
  funext y
  unfold iblk
  rw [View.read_apply]
  show V m c main_v0 _ = V m c main_v0 _
  refine congrArg (V m c main_v0) ?_
  funext a; apply Fin.ext
  match a with
  | ⟨0, _⟩ => show win0_0.index t (0 : Fin 3) * 16 + 1 * (y 0).val = t.val * 16 + (y 0).val; rw [e0]; omega
  | ⟨1, _⟩ => show win0_0.index t (1 : Fin 3) * 128 + 1 * (y 1).val = (y 1).val; rw [e1]; omega
  | ⟨2, _⟩ => show win0_0.index t (2 : Fin 3) * 256 + 1 * (y 2).val = (y 2).val; rw [e2]; omega

/-- Window 1's block at point `t` is nets `16·t … 16·t + 15` of its array. -/
theorem iblk1_eq (c : Dev nD) (t : Fin cfg0.N) :
    (iblk m c 1 t : Vec Ideal S16x128x128 .f32) = netBlock t.val (pt_lt t) (V m c main_v1) := by
  obtain ⟨-, ⟨e0, e1, e2⟩, -, -, -⟩ := idx_facts t
  funext y
  unfold iblk
  rw [View.read_apply]
  show V m c main_v1 _ = V m c main_v1 _
  refine congrArg (V m c main_v1) ?_
  funext a; apply Fin.ext
  match a with
  | ⟨0, _⟩ => show win0_1.index t (0 : Fin 3) * 16 + 1 * (y 0).val = t.val * 16 + (y 0).val; rw [e0]; omega
  | ⟨1, _⟩ => show win0_1.index t (1 : Fin 3) * 128 + 1 * (y 1).val = (y 1).val; rw [e1]; omega
  | ⟨2, _⟩ => show win0_1.index t (2 : Fin 3) * 128 + 1 * (y 2).val = (y 2).val; rw [e2]; omega

/-- Window 2's block at point `t` is nets `16·t … 16·t + 15` of its array. -/
theorem iblk2_eq (c : Dev nD) (t : Fin cfg0.N) :
    (iblk m c 2 t : Vec Ideal S16x128x128 .f32) = netBlock t.val (pt_lt t) (V m c main_v2) := by
  obtain ⟨-, -, ⟨e0, e1, e2⟩, -, -⟩ := idx_facts t
  funext y
  unfold iblk
  rw [View.read_apply]
  show V m c main_v2 _ = V m c main_v2 _
  refine congrArg (V m c main_v2) ?_
  funext a; apply Fin.ext
  match a with
  | ⟨0, _⟩ => show win0_2.index t (0 : Fin 3) * 16 + 1 * (y 0).val = t.val * 16 + (y 0).val; rw [e0]; omega
  | ⟨1, _⟩ => show win0_2.index t (1 : Fin 3) * 128 + 1 * (y 1).val = (y 1).val; rw [e1]; omega
  | ⟨2, _⟩ => show win0_2.index t (2 : Fin 3) * 128 + 1 * (y 2).val = (y 2).val; rw [e2]; omega

/-- Window 3's block at point `t` is nets `16·t … 16·t + 15` of its array. -/
theorem iblk3_eq (c : Dev nD) (t : Fin cfg0.N) :
    (iblk m c 3 t : Vec Ideal S16x64x128 .f32) = netBlock t.val (pt_lt t) (V m c main_v3) := by
  obtain ⟨-, -, -, ⟨e0, e1, e2⟩, -⟩ := idx_facts t
  funext y
  unfold iblk
  rw [View.read_apply]
  show V m c main_v3 _ = V m c main_v3 _
  refine congrArg (V m c main_v3) ?_
  funext a; apply Fin.ext
  match a with
  | ⟨0, _⟩ => show win0_3.index t (0 : Fin 3) * 16 + 1 * (y 0).val = t.val * 16 + (y 0).val; rw [e0]; omega
  | ⟨1, _⟩ => show win0_3.index t (1 : Fin 3) * 64 + 1 * (y 1).val = (y 1).val; rw [e1]; omega
  | ⟨2, _⟩ => show win0_3.index t (2 : Fin 3) * 128 + 1 * (y 2).val = (y 2).val; rw [e2]; omega

/-- The output array the three layers of the input arrays, as the region finds them. -/
abbrev layers (c : Dev nD) : A3 2048 64 256 := mlp (V m c main_v0) (V m c main_v1) (V m c main_v2) (V m c main_v3)

/-- WHAT POINT `t` WRITES BACK is block `t` of `layers`. -/
theorem flushed_eq (c : Dev nD) (t : Fin cfg0.N) :
    (dats m 0 c).flushed 4 t = ((cfg0.win 4).blk t).view.read (Elt Ideal) (layers m c) := by
  show (cfg0.win 4).cut (grid0.coords t) ((dats m 0 c).after 4 t) = _
  rw [after0_4]
  unfold out0_4
  rw [View.canon_unit_zero hz]
  simp only [View.ld_unit_zero (S := S16x128x256) hz, View.ld_unit_zero (S := S16x128x128) hz, View.ld_unit_zero (S := S16x64x128) hz]
  rw [Body.stored_eq, iblk0_eq, iblk1_eq, iblk2_eq, iblk3_eq, bmm_netBlock, bmm_netBlock, bmm_netBlock]
  obtain ⟨-, -, -, -, ⟨e0, e1, e2⟩⟩ := idx_facts t
  funext y
  show mlp (V m c main_v0) (V m c main_v1) (V m c main_v2) (V m c main_v3) _ = mlp (V m c main_v0) (V m c main_v1) (V m c main_v2) (V m c main_v3) (((cfg0.win 4).blk t).view.emb y)
  refine congrArg (mlp (V m c main_v0) (V m c main_v1) (V m c main_v2) (V m c main_v3)) ?_
  funext a; apply Fin.ext
  match a with
  | ⟨0, _⟩ => show t.val * 16 + (y 0).val = win0_4.index t (0 : Fin 3) * 16 + 1 * (y 0).val; rw [e0]; omega
  | ⟨1, _⟩ => show (y 1).val = win0_4.index t (1 : Fin 3) * 64 + 1 * (y 1).val; rw [e1]; omega
  | ⟨2, _⟩ => show (y 2).val = win0_4.index t (2 : Fin 3) * 256 + 1 * (y 2).val; rw [e2]; omega

/-- An index of the output array is in point `t`'s block iff each coordinate is in the block's range on its axis. -/
theorem mem_blk (t : Fin cfg0.N) (i : S2048x64x256.Idx) :
    i ∈ ((cfg0.win 4).blk t).view.set ↔ ∀ a : Fin 3, win0_4.index t a * S16x64x256.size a ≤ (i a).val ∧ (i a).val < win0_4.index t a * S16x64x256.size a + S16x64x256.size a := by
  show i ∈ ((View.whole main_v4).slice (win0_4.rect t)).set ↔ _
  rw [View.set_slice_whole, Rect.mem_set_unit]
  exact Iff.rfl

/-- Net `n` is written back by point `n / 16`: the blocks cover the output array. -/
theorem cover (i : S2048x64x256.Idx) : ∃ t : Fin cfg0.N, (cfg0.win 4).flush t = true ∧ i ∈ ((cfg0.win 4).blk t).view.set := by
  have h0 : (i 0).val < 2048 := (i 0).isLt
  have h1 : (i 1).val < 64 := (i 1).isLt
  have h2 : (i 2).val < 256 := (i 2).isLt
  have hN : cfg0.N = 128 := N_0
  obtain ⟨t, ht⟩ : ∃ t : Fin cfg0.N, t.val = (i 0).val / 16 := ⟨⟨(i 0).val / 16, by rw [hN]; omega⟩, rfl⟩
  obtain ⟨-, -, -, -, ⟨e0, e1, e2⟩⟩ := idx_facts t
  refine ⟨t, flush0_4 t, ?_⟩
  rw [mem_blk]
  intro a
  match a with
  | ⟨0, _⟩ => show win0_4.index t (0 : Fin 3) * 16 ≤ (i 0).val ∧ (i 0).val < win0_4.index t (0 : Fin 3) * 16 + 16; rw [e0, ht]; omega
  | ⟨1, _⟩ => show win0_4.index t (1 : Fin 3) * 64 ≤ (i 1).val ∧ (i 1).val < win0_4.index t (1 : Fin 3) * 64 + 64; rw [e1]; omega
  | ⟨2, _⟩ => show win0_4.index t (2 : Fin 3) * 256 ≤ (i 2).val ∧ (i 2).val < win0_4.index t (2 : Fin 3) * 256 + 256; rw [e2]; omega

/-- THE OUTPUT ARRAY after the region is the three layers of the input arrays as the region found them. -/
theorem final (c : Dev nD) : (dats m 0 c).arrAt 4 cfg0.N = layers m c :=
  (dats m 0 c).arrAt_eq_of_cover 4 (layers m c) (fun t _ => flushed_eq m c t) cover

end Cert.KernelIdeal.Nets

end
-- ==== Proof.KernelEnds.lean ====
/-
  The host lines around the region.

  Before the region the program re-lays each argument per net (a change of shape keeping row-major order), so each array
  the region finds is the re-laid argument.  After the region one line flattens the output array to rows, so the
  program's result is the flattened output array.
-/
import proofs.«146651_j16801912062196_1_alg».proof.Proof.Gen.KernelIdeal.Frame
import Idealize.ShloMosaic.Lib.Pipeline.Value
import Idealize.ShloMosaic.Lib.StableHlo.Run
import Idealize.ShloMosaic.PureOps.Ideal

noncomputable section

namespace Cert.KernelIdeal.Ends

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The input array the region finds is the first argument re-laid per net. -/
theorem V_v0 (c : Dev nD) : (V m c main_v0 : S2048x128x256.Idx → EReal)
    = shapeCast _ (m ((c : Thread nD τ).loc main_arg0)) shapeCasts_S262144x256_S2048x128x256 := by
  show StableHlo.after hostOps0 (fun b => m (c, b)) (Proc.devRef .tc main_v0) = _
  after_results
  rfl

/-- The first weight array the region finds is the second argument re-laid per net. -/
theorem V_v1 (c : Dev nD) : (V m c main_v1 : S2048x128x128.Idx → EReal)
    = shapeCast _ (m ((c : Thread nD τ).loc main_arg1)) shapeCasts_S33554432_S2048x128x128 := by
  show StableHlo.after hostOps0 (fun b => m (c, b)) (Proc.devRef .tc main_v1) = _
  after_results
  rfl

/-- The second weight array the region finds is the third argument re-laid per net. -/
theorem V_v2 (c : Dev nD) : (V m c main_v2 : S2048x128x128.Idx → EReal)
    = shapeCast _ (m ((c : Thread nD τ).loc main_arg2)) shapeCasts_S33554432_S2048x128x128 := by
  show StableHlo.after hostOps0 (fun b => m (c, b)) (Proc.devRef .tc main_v2) = _
  after_results
  rfl

/-- The third weight array the region finds is the fourth argument re-laid per net. -/
theorem V_v3 (c : Dev nD) : (V m c main_v3 : S2048x64x128.Idx → EReal)
    = shapeCast _ (m ((c : Thread nD τ).loc main_arg3)) shapeCasts_S16777216_S2048x64x128 := by
  show StableHlo.after hostOps0 (fun b => m (c, b)) (Proc.devRef .tc main_v3) = _
  after_results
  rfl

/-- The program's result is the output array after the region, flattened to rows. -/
theorem tail_v5 (c : Dev nD) :
    (Pipeline.afterTail₀ cfgs (dats m) 0 (V0 m) [hostOps1] c main_v5 : S131072x256.Idx → EReal)
      = shapeCast _ ((dats m 0 c).arrAt 4 cfg0.N) shapeCasts_S2048x64x256_S131072x256 := by
  unfold Pipeline.afterTail₀
  show StableHlo.after hostOps1 _ (Proc.devRef .tc main_v5) = _
  after_results
  funext i
  exact congrArg (fun z : S2048x64x256.Idx → EReal => shapeCast S131072x256 z shapeCasts_S2048x64x256_S131072x256 i)
    (Pipeline.withArrays_arr spec0 launch0.win.arr_inj c (V0 m c) (fun w => (dats m 0 c).arrAt w cfg0.N) 4)

end Cert.KernelIdeal.Ends

end
-- ==== Proof.KernelRun.lean ====
/-
  The kernel program's run, read: its result is `result` of its arguments.

  The result is the output array flattened to rows; the output array is the three layers of the arrays the region found;
  each of those is an argument re-laid per net.  Together: `result` of the four arguments, which end unchanged.
-/
import proofs.«146651_j16801912062196_1_alg».proof.Proof.KernelValue
import proofs.«146651_j16801912062196_1_alg».proof.Proof.KernelEnds

noncomputable section

namespace Cert.KernelIdeal.Whole

open Cert.KernelIdeal Cert.KernelIdeal.Gen
open Idealize.ShloMosaic Idealize.ShloMosaic.TcCoe Idealize.SL.Sem
open Idealize.ShloMosaic.Pipeline (Dat)
open Cert.BlockDiagMlp

variable (m : (ℓ : Loc nD τ sig) → Buf (Elt Ideal) ℓ) (ρ : Dev nD → PrngReg)

/-- The program's result as one function of its four arguments. -/
abbrev out (c : Dev nD) : S131072x256.Idx → EReal :=
  result shapeCasts_S262144x256_S2048x128x256 shapeCasts_S33554432_S2048x128x128 shapeCasts_S16777216_S2048x64x128
    shapeCasts_S2048x64x256_S131072x256
    (m ((c.tc : Thread nD τ).loc main_arg0)) (m ((c.tc : Thread nD τ).loc main_arg1)) (m ((c.tc : Thread nD τ).loc main_arg2)) (m ((c.tc : Thread nD τ).loc main_arg3))

/-- The flattened output array is `result` of the arguments. -/
theorem tail_eq (c : Dev nD) :
    (Pipeline.afterTail₀ cfgs (dats m) 0 (V0 m) [hostOps1] c main_v5 : S131072x256.Idx → EReal) = out m c := by
  rw [Ends.tail_v5, Nets.final]
  unfold Nets.layers out result
  rw [Ends.V_v0, Ends.V_v1, Ends.V_v2, Ends.V_v3]

/-- Every weakly fair execution of the kernel program terminates with its result at `result` of the arguments and the
    arguments unchanged. -/
theorem run : θ_run defs (onTc (τ := τ) (main (F := Ideal))) ⟨m, fun _ => 0, ρ⟩ fun r => ∀ c : Dev nD,
      r.2.mem ((c.tc : Thread nD τ).loc main_v5) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.lean ====
/-
  `Cert.Claim` for the fused three-layer block-diagonal MLP.

  2048 independent nets; net `n` maps its [128,256] input slab X_n to  W2_n · (W1_n · (W0_n · X_n)),  a [64,256] slab.  The kernel
  does the three products for 16 nets per grid point on the matrix unit (operands narrowed to bf16, f32 accumulation
  from zero); the reference does each layer for all nets as one batched product, flattening to rows and re-laying per
  net between layers.  Over the extended reals narrowing is the identity, a product into a zero accumulator is the sum
  of products over the contracted axis, and flattening followed by re-laying is the identity: both programs compute the
  same sums of the same products in the same order of parentheses — `Cert.BlockDiagMlp.result` of the arguments.  No
  finiteness is used.

  The three frames are the generated ones (the reference's is its run with the result dropped); the idealization rewrote
  nothing, so `preserves` is `True`.
-/
import proofs.«146651_j16801912062196_1_alg».proof.Defs
import proofs.«146651_j16801912062196_1_alg».proof.Proof.Gen.Kernel
import proofs.«146651_j16801912062196_1_alg».proof.Proof.Gen.Kernel.Skeleton
import proofs.«146651_j16801912062196_1_alg».proof.Proof.Gen.Kernel.Launch
import proofs.«146651_j16801912062196_1_alg».proof.Proof.Gen.Kernel.Points
import proofs.«146651_j16801912062196_1_alg».proof.Proof.Gen.Kernel.Frame
import proofs.«146651_j16801912062196_1_alg».proof.Proof.Gen.KernelIdeal
import proofs.«146651_j16801912062196_1_alg».proof.Proof.Gen.KernelIdeal.Skeleton
import proofs.«146651_j16801912062196_1_alg».proof.Proof.Gen.KernelIdeal.Launch
import proofs.«146651_j16801912062196_1_alg».proof.Proof.Gen.KernelIdeal.Points
import proofs.«146651_j16801912062196_1_alg».proof.Proof.Gen.KernelIdeal.Frame
import proofs.«146651_j16801912062196_1_alg».proof.Proof.Gen.ReferenceIdeal
import proofs.«146651_j16801912062196_1_alg».proof.Proof.Gen.ReferenceIdeal.Run
import proofs.«146651_j16801912062196_1_alg».proof.Proof.Gen.ReferenceIdeal.Read
import proofs.«146651_j16801912062196_1_alg».proof.Proof.Gen.Pre_finite_inputs
import Idealize.ShloMosaic.Adequacy
import Idealize.ShloMosaic.Init

import proofs.«146651_j16801912062196_1_alg».proof.Proof.RefLayers
import proofs.«146651_j16801912062196_1_alg».proof.Proof.KernelRun

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result at `result` of the arguments, which agree. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Layers.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
